-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x128 .f32) (main_arg2 : IVec S2x800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S5000x128 : Shape := ⟨2, ![5000, 128]⟩

abbrev nBuf : Space → Nat
  | .hbm => 18
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S128x128, .f32⟩
  | .hbm, ⟨14, _⟩ => ⟨S128x128, .f32⟩
  | .hbm, ⟨15, _⟩ => ⟨S1x128, .f32⟩
  | .hbm, ⟨16, _⟩ => ⟨S1x128, .f32⟩
  | .hbm, ⟨17, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x128, .f32⟩
  | .hbm, ⟨11, _⟩ => ⟨S800000x1, .i32⟩
  | .hbm, ⟨12, _⟩ => ⟨S50000x128, .f32⟩
  | .hbm, ⟨13, _⟩ => ⟨S128x128, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S_, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S50000x128, .i1⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x128 : S_.BroadcastsInDim S50000x128 (![] : Fin 0 → Fin S50000x128.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMish.lean ====
/-
  Mish on the extended reals: mish x = x · tanh (softplus x), with softplus x = max(x, 0) + log(1 + e^(−|x|)), the
  overflow-free form of log(1 + eˣ). Both programs compute softplus as the two-argument log-add-exp of x and 0, which
  tests its difference x − 0 for "not a number" by comparing it with itself; on the extended reals nothing differs from
  itself, so the test never fires and the guarded branch is the form above. The tile program writes −|d| as 0 − |d|, the
  host program as the negation of |d|: the same extended real.
-/
import Idealize.ShloMosaic.PureOps.Ideal.Laws
import Idealize.ShloMosaic.Lib.ValueIdx

noncomputable section

namespace Mish

open Idealize.ShloMosaic

/-- softplus x = max(x, 0) + log(1 + e^(−|x|)), |x| written max(x, −x). -/
def softplus (x : EReal) : EReal := max x 0 + Ideal.log1p (Ideal.exp (-(max x (-x))))

/-- mish x = x · tanh (softplus x). -/
def mish (x : EReal) : EReal := x * Ideal.tanh (softplus x)

/-- The float zero pattern is the extended real 0. -/
theorem zero_word : FloatOps.ofBits (F := Ideal) .f32 0x00000000#32 = (0 : EReal) := Ideal.ofBits_zero_f32

/-- No extended real differs from itself: the "not a number" test answers no. -/
theorem cmp_ne_self (p : CmpFPredicate) (hp : p = .one ∨ p = .une) (d : EReal) : Ideal.cmp p d d = 0#1 := by
  rcases hp with rfl | rfl <;> simp [Ideal.cmp]

/-- The tile program's spelling of mish: the guard on d = x − 0, and −|d| written 0 − |d|. -/
theorem tile_form (x : EReal) :
    x * Ideal.tanh (Scalar.select (Ideal.cmp .one (x - FloatOps.ofBits (F := Ideal) .f32 0x00000000#32) (x - FloatOps.ofBits (F := Ideal) .f32 0x00000000#32))
        (x + FloatOps.ofBits (F := Ideal) .f32 0x00000000#32)
        (max x (FloatOps.ofBits (F := Ideal) .f32 0x00000000#32) + Ideal.log1p (Ideal.exp (FloatOps.ofBits (F := Ideal) .f32 0x00000000#32
          - max (x - FloatOps.ofBits (F := Ideal) .f32 0x00000000#32) (-(x - FloatOps.ofBits (F := Ideal) .f32 0x00000000#32))))))
      = mish x := by
  rw [zero_word, sub_zero, cmp_ne_self .one (.inl rfl), zero_sub]
  rfl

/-- The host program's spelling of mish: the guard on d = x − 0, and −|d| as a negation. -/
theorem host_form (x : EReal) :
    x * Ideal.tanh (Scalar.select (Ideal.cmp .une (x - FloatOps.ofBits (F := Ideal) .f32 0x00000000#32) (x - FloatOps.ofBits (F := Ideal) .f32 0x00000000#32))
        (x + FloatOps.ofBits (F := Ideal) .f32 0x00000000#32)
        (max x (FloatOps.ofBits (F := Ideal) .f32 0x00000000#32) + Ideal.log1p (Ideal.exp
          (-(max (x - FloatOps.ofBits (F := Ideal) .f32 0x00000000#32) (-(x - FloatOps.ofBits (F := Ideal) .f32 0x00000000#32)))))))
      = mish x := by
  rw [zero_word, sub_zero, cmp_ne_self .une (.inr rfl)]
  rfl

end Mish

end
-- ==== Proof.NodeUpdate.lean ====
/-
  One node update of a message-passing layer, on the extended reals.

  Every node r first sums the messages of its incoming edges. Both programs form that aggregate with one and the same
  scatter-add, so here it is a given matrix agg. The sum then goes through two dense layers with a shifted softplus
  between them, and the result is added to the node's own features:

      out(r, j) = v(r, j) + ( Σ_k act( Σ_l agg(r, l) · W1(k, l) + b1(k) ) · W2(j, k) + b2(j) ),
      act y = softplus y − c,

  where c is the single-precision constant nearest log 2 (the same word in both programs, never evaluated) and
  softplus y = max(y, 0) + log(1 + e^(−|y|)). The weights enter as written, W(k, l) with the output unit first: both
  programs multiply by the transposed matrix.

  The tile program is handed the transposed weights Wᵀ(l, k) = W(k, l) and each bias as a one-row matrix, and computes
  the same expression from those (`staged`); reading the transposes and the rows back (`staged_eq_updated`) gives
  `updated`. No law beyond that is used: the two sides are the same sums of the same products in the same order, so no
  entry has to be finite.

  Both programs spell softplus as the log-add-exp of y and 0 guarded by a "not a number" test on y − 0, which never
  fires on the extended reals; the tile writes −|d| as 0 − |d|, the host as a negation (`tile_act`, `host_act`).
-/
import Idealize.ShloMosaic.Lib.ValueIdx
import Idealize.ShloMosaic.Lib.ValueLayout
import Idealize.ShloMosaic.Lib.Pipeline.Value
import Idealize.ShloMosaic.PureOps.Ideal.Laws
import proofs.«108438_j17377437680124_1_alg».proof.Proof.LibMish

noncomputable section

namespace NodeUpdate

open Idealize.ShloMosaic Idealize.ShloMosaic.ValueIdx

/-- Node features and aggregates: 50000 nodes, 128 channels. -/
abbrev Nodes : Shape := ⟨2, ![50000, 128]⟩
/-- A dense layer's weights, 128 × 128. -/
abbrev Weights : Shape := ⟨2, ![128, 128]⟩
/-- A dense layer's bias. -/
abbrev Bias : Shape := ⟨1, ![128]⟩
/-- The same bias laid out as a matrix of one row. -/
abbrev BiasRow : Shape := ⟨2, ![1, 128]⟩

/-- The constant the activation subtracts: the single-precision number nearest log 2. -/
def shift : EReal := Ideal.ofBits .f32 0x3F317218#32

/-- The shifted softplus. -/
def act (y : EReal) : EReal := Mish.softplus y - shift

/-- The first layer before its activation, at node r and hidden unit k. -/
def pre (agg : Nodes.Idx → EReal) (W1 : Weights.Idx → EReal) (b1 : Bias.Idx → EReal) (r : Fin 50000) (k : Fin 128) : EReal :=
  (∑ l : Fin 128, agg (ix2 r l) * W1 (ix2 k l)) + b1 (ix1 k)

/-- The updated features of node r in channel j: v(r, j) + (Σ_k act(pre(r, k)) · W2(j, k) + b2(j)). -/
def outAt (v agg : Nodes.Idx → EReal) (W1 : Weights.Idx → EReal) (b1 : Bias.Idx → EReal)
    (W2 : Weights.Idx → EReal) (b2 : Bias.Idx → EReal) (r : Fin 50000) (j : Fin 128) : EReal :=
  v (ix2 r j) + ((∑ k : Fin 128, act (pre agg W1 b1 r k) * W2 (ix2 j k)) + b2 (ix1 j))

/-- The updated node features as one array. -/
def updated (v agg : Nodes.Idx → EReal) (W1 : Weights.Idx → EReal) (b1 : Bias.Idx → EReal)
    (W2 : Weights.Idx → EReal) (b2 : Bias.Idx → EReal) : Nodes.Idx → EReal :=
  fun i => outAt v agg W1 b1 W2 b2 (i 0) (i 1)

/-- The same expression over what the tile program is handed: transposed weights and one-row biases. -/
def stagedAt (agg v : Nodes.Idx → EReal) (w1t : Weights.Idx → EReal) (b1r : BiasRow.Idx → EReal)
    (w2t : Weights.Idx → EReal) (b2r : BiasRow.Idx → EReal) (r : Fin 50000) (j : Fin 128) : EReal :=
  v (ix2 r j) + ((∑ k : Fin 128, act ((∑ l : Fin 128, agg (ix2 r l) * w1t (ix2 l k)) + b1r (ix2 (0 : Fin 1) k))
      * w2t (ix2 k j)) + b2r (ix2 (0 : Fin 1) j))

/-- The staged expression as one array. -/
def staged (agg v : Nodes.Idx → EReal) (w1t : Weights.Idx → EReal) (b1r : BiasRow.Idx → EReal)
    (w2t : Weights.Idx → EReal) (b2r : BiasRow.Idx → EReal) : Nodes.Idx → EReal :=
  fun i => stagedAt agg v w1t b1r w2t b2r (i 0) (i 1)

/-- Handed the transposes of W1, W2 and the biases as rows, the staged expression is the update: Wᵀ(l, k) = W(k, l),
    and a one-row matrix reads its vector. -/
theorem stagedAt_eq (v agg : Nodes.Idx → EReal) (W1 : Weights.Idx → EReal) (b1 : Bias.Idx → EReal)
    (W2 : Weights.Idx → EReal) (b2 : Bias.Idx → EReal)
    (ht : Weights.Transposes [1, 0] Weights) (hc : Bias.ShapeCasts BiasRow) (r : Fin 50000) (j : Fin 128) :
    stagedAt agg v (transpose Weights [1, 0] W1 ht) (shapeCast BiasRow b1 hc)
        (transpose Weights [1, 0] W2 ht) (shapeCast BiasRow b2 hc) r j
      = outAt v agg W1 b1 W2 b2 r j := by
  unfold stagedAt outAt pre
  have e1 : ∀ l k : Fin 128, transpose Weights [1, 0] W1 ht (ix2 l k) = W1 (ix2 k l) :=
    fun l k => transpose_ix2_apply W1 ht l k
  have e2 : ∀ k j : Fin 128, transpose Weights [1, 0] W2 ht (ix2 k j) = W2 (ix2 j k) :=
    fun k j => transpose_ix2_apply W2 ht k j
  have e3 : ∀ k : Fin 128, shapeCast BiasRow b1 hc (ix2 (0 : Fin 1) k) = b1 (ix1 k) :=
    fun k => shapeCast_a_1a_apply b1 hc 0 k
  have e4 : ∀ k : Fin 128, shapeCast BiasRow b2 hc (ix2 (0 : Fin 1) k) = b2 (ix1 k) :=
    fun k => shapeCast_a_1a_apply b2 hc 0 k
  simp only [e1, e2, e3, e4]

theorem staged_eq_updated (v agg : Nodes.Idx → EReal) (W1 : Weights.Idx → EReal) (b1 : Bias.Idx → EReal)
    (W2 : Weights.Idx → EReal) (b2 : Bias.Idx → EReal)
    (ht : Weights.Transposes [1, 0] Weights) (hc : Bias.ShapeCasts BiasRow) :
    staged agg v (transpose Weights [1, 0] W1 ht) (shapeCast BiasRow b1 hc)
        (transpose Weights [1, 0] W2 ht) (shapeCast BiasRow b2 hc)
      = updated v agg W1 b1 W2 b2 :=
  funext fun i => stagedAt_eq v agg W1 b1 W2 b2 ht hc (i 0) (i 1)

/-- The tile program's spelling of the shifted softplus: the guard on d = y − 0, and −|d| written 0 − |d|. -/
theorem tile_act (y : EReal) :
    Scalar.select (Ideal.cmp .one (y - FloatOps.ofBits (F := Ideal) .f32 0x00000000#32) (y - FloatOps.ofBits (F := Ideal) .f32 0x00000000#32))
        (y + FloatOps.ofBits (F := Ideal) .f32 0x00000000#32)
        (max y (FloatOps.ofBits (F := Ideal) .f32 0x00000000#32) + Ideal.log1p (Ideal.exp (FloatOps.ofBits (F := Ideal) .f32 0x00000000#32
          - max (y - FloatOps.ofBits (F := Ideal) .f32 0x00000000#32) (-(y - FloatOps.ofBits (F := Ideal) .f32 0x00000000#32)))))
      - FloatOps.ofBits (F := Ideal) .f32 0x3F317218#32
      = act y := by
  rw [Mish.zero_word, sub_zero, Mish.cmp_ne_self .one (.inl rfl), zero_sub]
  rfl

/-- The host program's spelling: the guard on d = y − 0, and −|d| as a negation. -/
theorem host_act (y : EReal) :
    Scalar.select (Ideal.cmp .une (y - FloatOps.ofBits (F := Ideal) .f32 0x00000000#32) (y - FloatOps.ofBits (F := Ideal) .f32 0x00000000#32))
        (y + FloatOps.ofBits (F := Ideal) .f32 0x00000000#32)
        (max y (FloatOps.ofBits (F := Ideal) .f32 0x00000000#32) + Ideal.log1p (Ideal.exp
          (-(max (y - FloatOps.ofBits (F := Ideal) .f32 0x00000000#32) (-(y - FloatOps.ofBits (F := Ideal) .f32 0x00000000#32))))))
      - FloatOps.ofBits (F := Ideal) .f32 0x3F317218#32
      = act y := by
  rw [Mish.zero_word, sub_zero, Mish.cmp_ne_self .une (.inr rfl)]
  rfl

end NodeUpdate

end
-- ==== Proof.RefValue.lean ====
/-
  The reference program computes the node update.

  Its result is read one operation at a time (the generated stage lemmas): the last addition adds the node's own
  features; the second product contracts the activated hidden row with column j of the transposed W2, that is with
  W2(j, ·), and its bias is b2 spread as a row and down the rows; the activation is the guarded log-add-exp of the
  first layer's value and 0, less the constant; the first layer contracts the aggregate's row r with W1(k, ·) and
  adds b1(k). The aggregate itself — the scatter-add of the edge messages — is left as the stage that computes it.
-/
import proofs.«108438_j17377437680124_1_alg».proof.Proof.Gen.ReferenceIdeal.Read
import proofs.«108438_j17377437680124_1_alg».proof.Proof.NodeUpdate

noncomputable section

namespace Cert.ReferenceIdeal.RefValue

open Cert.ReferenceIdeal Cert.ReferenceIdeal.Read Idealize.ShloMosaic Idealize.ShloMosaic.ValueIdx NodeUpdate

/-! ## Where each operand is read -/

/-- The first product reads the aggregate at (r, l), -/
theorem agg_at (r : Fin 50000) (k l : Fin 128) : lidx_main_v6 (ix2 r k) l = ix2 r l :=
  funext fun a => Fin.ext (by match a with | ⟨0, _⟩ => rfl | ⟨1, _⟩ => rfl)

/-- and the transposed first weights at (l, k), that is W1 at (k, l). -/
theorem w1_at (r : Fin 50000) (k l : Fin 128) : idx_main_v5 (ridx_main_v6 (ix2 r k) l) = ix2 k l :=
  funext fun a => Fin.ext (by match a with | ⟨0, _⟩ => rfl | ⟨1, _⟩ => rfl)

/-- The first bias, spread as a row and down the rows, is read at k. -/
theorem b1_at (r : Fin 50000) (k : Fin 128) : idx_main_v7 (idx_main_v8 (ix2 r k)) = ix1 k :=
  funext fun a => Fin.ext (by match a with | ⟨0, _⟩ => rfl)

/-- The second product reads the hidden row at (r, k), -/
theorem hid_at (r : Fin 50000) (j k : Fin 128) : lidx_main_v14 (ix2 r j) k = ix2 r k :=
  funext fun a => Fin.ext (by match a with | ⟨0, _⟩ => rfl | ⟨1, _⟩ => rfl)

/-- and the transposed second weights at (k, j), that is W2 at (j, k). -/
theorem w2_at (r : Fin 50000) (j k : Fin 128) : idx_main_v13 (ridx_main_v14 (ix2 r j) k) = ix2 j k :=
  funext fun a => Fin.ext (by match a with | ⟨0, _⟩ => rfl | ⟨1, _⟩ => rfl)

/-- The second bias is read at j. -/
theorem b2_at (r : Fin 50000) (j : Fin 128) : idx_main_v15 (idx_main_v16 (ix2 r j)) = ix1 j :=
  funext fun a => Fin.ext (by match a with | ⟨0, _⟩ => rfl)

/-! ## The stages -/

variable (x0 : (⟨S50000x128, .f32⟩ : BufTy).Contents (Elt Ideal)) (x1 : (⟨S800000x128, .f32⟩ : BufTy).Contents (Elt Ideal))
  (x2 : (⟨S2x800000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The first layer before its activation: Σ_l agg(r, l) · W1(k, l) + b1(k). -/
theorem first_layer (r : Fin 50000) (k : Fin 128) :
    val_main_v9 (F := Ideal) x1 x2 x3 x4 (ix2 r k) = pre (val_main_v4 (F := Ideal) x1 x2) x3 x4 r k := by
  rw [val_main_v9_apply, val_main_v6_apply, val_main_v8_apply, val_main_v7_apply]
  simp only [val_main_v5_apply, agg_at, w1_at, b1_at]
  rfl

/-- The activation: the host's guarded log-add-exp of the first layer's value and 0, less the constant. -/
theorem activation (i : S50000x128.Idx) :
    val_main_v12 (F := Ideal) x1 x2 x3 x4 i = act (val_main_v9 (F := Ideal) x1 x2 x3 x4 i) := by
  rw [val_main_v12_apply, val_main_v10_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_v11_apply]
  simp only [val_main_call0_cst_apply, val_main_cst_0_apply]
  generalize val_main_v9 (F := Ideal) x1 x2 x3 x4 i = y
  exact host_act y

/-- The reference's result is the node update of its arguments, the aggregate being the scatter-add stage. -/
theorem result_eq :
    val_main_v18 (F := Ideal) x0 x1 x2 x3 x4 x5 x6 = updated x0 (val_main_v4 (F := Ideal) x1 x2) x3 x4 x5 x6 := by
  funext i
  obtain ⟨r, j, rfl⟩ : ∃ (r : Fin 50000) (j : Fin 128), i = ix2 r j := ⟨i 0, i 1, eq_ix2 i⟩
  rw [val_main_v18_apply, val_main_v17_apply, val_main_v14_apply, val_main_v16_apply, val_main_v15_apply]
  simp only [val_main_v13_apply, hid_at, w2_at, b2_at, activation, first_layer]
  rfl

end Cert.ReferenceIdeal.RefValue

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.TilePayload.lean ====
/-
  What one tile of the fused kernel stores, entry by entry.

  A tile holds 5000 consecutive nodes. From its rows of the aggregate, the transposed weights, the one-row biases and
  its rows of the node features it stores, at local row p and channel q,

      v(p, q) + ( Σ_k act( Σ_l agg(p, l) · w1t(l, k) + b1r(0, k) ) · w2t(k, q) + b2r(0, q) ).

  Each dense layer is a matrix product into a zero accumulator — at the extended reals the plain sum over the
  contracted axis, the narrowing of its operands to half precision being the identity — plus the bias row spread down
  the 5000 rows. The activation between them acts entry by entry, so an entry of the hidden tile depends on one entry of
  the first layer's result only.
-/
import proofs.«108438_j17377437680124_1_alg».proof.Proof.Gen.KernelIdeal.Skeleton
import proofs.«108438_j17377437680124_1_alg».proof.Proof.LibPlainDot
import proofs.«108438_j17377437680124_1_alg».proof.Proof.NodeUpdate
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx NodeUpdate

/-- The tile's two products contract the left operand's columns with the right operand's rows, nothing batched: the
    left operand is read at (row, k), the right at (k, column). -/
theorem plain : PlainDot.IsPlain (M := 5000) (K := 128) (N := 128) dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- One dense layer of the tile at (p, q): the rows x times the (narrowed) weights w into a zero accumulator, plus the
    bias row b spread down the rows, is Σ_k x(p, k) · w(k, q) + b(0, q). -/
theorem layer_apply {φ : FTy} (x : FVec Ideal S5000x128 φ) (w : Vec Ideal S128x128 .f32) (b : Vec Ideal S1x128 .f32)
    (p : Fin 5000) (q : Fin 128) :
    addf (matmul dot_S5000x128_S128x128_S5000x128_1_0_0_1_n_n none x
          (truncf .bf16 (shapeCast S128x128 w shapeCasts_S128x128_S128x128) bitsLt_bf16_f32)
          (constant (F := Ideal) S5000x128 .f32 0x00000000#32))
        (broadcastTo S5000x128 (shapeCast S1x128 b shapeCasts_S1x128_S1x128) broadcasts_S1x128_S5000x128) (ix2 p q)
      = (∑ k : Fin 128, x (ix2 p k) * w (ix2 k q)) + b (ix2 (0 : Fin 1) q) := by
  rw [shapeCast_self w, shapeCast_self b]
  refine (addf_apply _ _ _).trans ?_
  refine congrArg₂ (· + ·) ?_ (broadcastTo_1b_ab_apply b broadcasts_S1x128_S5000x128 p q)
  exact PlainDot.matmul_zero_apply dot_S5000x128_S128x128_S5000x128_1_0_0_1_n_n plain none x _ p q

/-- The activation of the tile, entry by entry: the guarded log-add-exp of y and 0, less the constant. -/
theorem act_apply (y : FVec Ideal S5000x128 .f32) (i : S5000x128.Idx) :
    subf (select (cmpf .one (subf y (broadcast S5000x128 (Scalar.ofBits (F := Ideal) .f32 0x00000000#32)))
              (subf y (broadcast S5000x128 (Scalar.ofBits (F := Ideal) .f32 0x00000000#32))))
            (addf y (broadcast S5000x128 (Scalar.ofBits (F := Ideal) .f32 0x00000000#32)))
            (addf (maximumf y (broadcast S5000x128 (Scalar.ofBits (F := Ideal) .f32 0x00000000#32)))
              (log1p (exp (subf (broadcast S5000x128 (Scalar.ofBits (F := Ideal) .f32 0x00000000#32))
                (absf (subf y (broadcast S5000x128 (Scalar.ofBits (F := Ideal) .f32 0x00000000#32)))))))))
        (broadcast S5000x128 (Scalar.ofBits (F := Ideal) .f32 0x3F317218#32)) i
      = act (y i) :=
  tile_act (y i)

/-- The entry the tile stores at local row p and channel q. -/
theorem payload_apply (agg : Vec Ideal S5000x128 .f32) (w1t : Vec Ideal S128x128 .f32) (b1r : Vec Ideal S1x128 .f32)
    (w2t : Vec Ideal S128x128 .f32) (b2r : Vec Ideal S1x128 .f32) (v : Vec Ideal S5000x128 .f32) (p : Fin 5000) (q : Fin 128) :
    k0_pay1 agg w1t b1r w2t b2r v (ix2 p q)
      = v (ix2 p q) + ((∑ k : Fin 128, act ((∑ l : Fin 128, agg (ix2 p l) * w1t (ix2 l k)) + b1r (ix2 (0 : Fin 1) k))
          * w2t (ix2 k q)) + b2r (ix2 (0 : Fin 1) q)) := by
  unfold k0_pay1
  rw [shapeCast_self agg]
  refine congrArg (v (ix2 p q) + ·) ?_
  refine (layer_apply _ w2t b2r p q).trans ?_
  refine congrArg (· + b2r (ix2 (0 : Fin 1) q)) ?_
  refine Finset.sum_congr rfl fun k _ => ?_
  refine congrArg (· * w2t (ix2 k q)) ?_
  refine (act_apply _ (ix2 p k)).trans ?_
  exact congrArg act (layer_apply _ w1t b1r p k)

end Cert.KernelIdeal.Tile

end
-- ==== Proof.TileArray.lean ====
/-
  The fused kernel's result array is the node update of the arguments.

  The grid has ten points; point t handles nodes 5000·t … 5000·t + 4999. Its block of the aggregate and of the node
  features is those 5000 rows of each array, the transposed weights and the one-row biases are handed over whole at
  every point, and it writes rows 5000·t … 5000·t + 4999 of the result. So local row p of point t is node 5000·t + p,
  and what the point stores (one tile's entries) is the staged expression of the whole arrays read at that node's
  row: point t writes block t of ONE whole-array function. The ten blocks tile the 50000 rows — node r lies in block
  r / 5000 — so the result array ends holding that function everywhere.

  The arrays the region finds were prepared by the host: the aggregate by the scatter-add of the edge messages into
  zeros at the destination row of the edge list, the weights by a transpose, each bias by a recast to one row. Reading
  those back turns the staged expression into the node update of the arguments.
-/
import proofs.«108438_j17377437680124_1_alg».proof.Proof.Gen.KernelIdeal.Value
import proofs.«108438_j17377437680124_1_alg».proof.Proof.TilePayload
import Idealize.ShloMosaic.Lib.Pipeline.Value
import Idealize.ShloMosaic.Lib.StableHlo.Run
import Idealize.ShloMosaic.Lib.Tactic

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.ValueIdx Idealize.ShloMosaic.StableHlo NodeUpdate
open Idealize.ShloMosaic.Pipeline (Dat)

variable (m : (ℓ : Loc nD τ sig) → Buf (Elt Ideal) ℓ) (ρ : Dev nD → PrngReg)

/-! ## What the host hands the region -/

/-- The aggregate: the edge messages scatter-added into zeros, edge e into the row its destination (row 1 of the edge
    list) names. -/
def aggregate (x1 : (⟨S800000x128, .f32⟩ : BufTy).Contents (Elt Ideal)) (x2 : (⟨S2x800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] x2 slices_S2x800000_S1x800000_1_0) shapeCasts_S1x800000_S800000))
    x1

theorem V_agg (c : Dev nD) : (V m c main_v4 : S50000x128.Idx → EReal)
    = aggregate (m ((c : Thread nD τ).loc main_arg1)) (m ((c : Thread nD τ).loc main_arg2)) := by
  dsimp only [V, hostOps0]; after_results; rfl

theorem V_w1t (c : Dev nD) : (V m c main_v5 : S128x128.Idx → EReal)
    = transpose S128x128 [1, 0] (m ((c : Thread nD τ).loc main_arg3)) transposes_S128x128_S128x128_1_0 := by
  dsimp only [V, hostOps0]; after_results

theorem V_w2t (c : Dev nD) : (V m c main_v6 : S128x128.Idx → EReal)
    = transpose S128x128 [1, 0] (m ((c : Thread nD τ).loc main_arg5)) transposes_S128x128_S128x128_1_0 := by
  dsimp only [V, hostOps0]; after_results

theorem V_b1r (c : Dev nD) : (V m c main_v7 : S1x128.Idx → EReal)
    = shapeCast S1x128 (m ((c : Thread nD τ).loc main_arg4)) shapeCasts_S128_S1x128 := by
  dsimp only [V, hostOps0]; after_results; rfl

theorem V_b2r (c : Dev nD) : (V m c main_v8 : S1x128.Idx → EReal)
    = shapeCast S1x128 (m ((c : Thread nD τ).loc main_arg6)) shapeCasts_S128_S1x128 := by
  dsimp only [V, hostOps0]; after_results; rfl

/-! ## The blocks -/

theorem hz : (![0, 0] : Fin 2 → Nat) = fun _ => 0 := funext fun a => by fin_cases a <;> rfl

/-- The printed index maps over the ten points: the aggregate, the node features and the result move down the rows
    with the point; the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem N_eq : cfg0.N = 10 := N_0

/-- Rows read through the aggregate's window: local row p of point t's block is row 5000·t + p of the array, whatever
    the array holds. -/
theorem rows0 (t : Fin cfg0.N) (A : S50000x128.Idx → EReal) (p : Fin 5000) (l : Fin 128) (r : Fin 50000)
    (hr : r.val = 5000 * t.val + p.val) :
    ((cfg0.win 0).blk t).view.read (Elt Ideal) A (ix2 p l) = A (ix2 r l) := by
  obtain ⟨e0, e1, -⟩ := idx_facts t
  rw [View.read_apply]
  show A (((cfg0.win 0).blk t).view.emb (ix2 p l)) = A (ix2 r l)
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * l.val = l.val; rw [e1]; omega

/-- The same through the node features' window. -/
theorem rows1 (t : Fin cfg0.N) (A : S50000x128.Idx → EReal) (p : Fin 5000) (q : Fin 128) (r : Fin 50000)
    (hr : r.val = 5000 * t.val + p.val) :
    ((cfg0.win 1).blk t).view.read (Elt Ideal) A (ix2 p q) = A (ix2 r q) := by
  obtain ⟨-, -, e0, e1, -⟩ := idx_facts t
  rw [View.read_apply]
  show A (((cfg0.win 1).blk t).view.emb (ix2 p q)) = A (ix2 r q)
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * q.val = q.val; rw [e1]; omega

/-- The first layer's transposed weights are handed over whole at every point. -/
theorem whole2 (t : Fin cfg0.N) (A : S128x128.Idx → EReal) (l k : Fin 128) :
    ((cfg0.win 2).blk t).view.read (Elt Ideal) A (ix2 l k) = A (ix2 l k) := by
  obtain ⟨-, -, -, -, e0, e1, -⟩ := idx_facts t
  rw [View.read_apply]
  show A (((cfg0.win 2).blk t).view.emb (ix2 l k)) = A (ix2 l k)
  refine congrArg A (funext fun a => Fin.ext ?_)
  match a with
  | ⟨0, _⟩ => show win0_2.index t (0 : Fin 2) * 128 + 1 * l.val = l.val; rw [e0]; omega
  | ⟨1, _⟩ => show win0_2.index t (1 : Fin 2) * 128 + 1 * k.val = k.val; rw [e1]; omega

/-- So is the first bias row. -/
theorem whole3 (t : Fin cfg0.N) (A : S1x128.Idx → EReal) (u : Fin 1) (k : Fin 128) :
    ((cfg0.win 3).blk t).view.read (Elt Ideal) A (ix2 u k) = A (ix2 u k) := by
  obtain ⟨-, -, -, -, -, -, e0, e1, -⟩ := idx_facts t
  rw [View.read_apply]
  show A (((cfg0.win 3).blk t).view.emb (ix2 u k)) = A (ix2 u k)
  refine congrArg A (funext fun a => Fin.ext ?_)
  match a with
  | ⟨0, _⟩ => show win0_3.index t (0 : Fin 2) * 1 + 1 * u.val = u.val; rw [e0]; omega
  | ⟨1, _⟩ => show win0_3.index t (1 : Fin 2) * 128 + 1 * k.val = k.val; rw [e1]; omega

/-- So are the second layer's transposed weights, -/
theorem whole4 (t : Fin cfg0.N) (A : S128x128.Idx → EReal) (k q : Fin 128) :
    ((cfg0.win 4).blk t).view.read (Elt Ideal) A (ix2 k q) = A (ix2 k q) := by
  obtain ⟨-, -, -, -, -, -, -, -, e0, e1, -⟩ := idx_facts t
  rw [View.read_apply]
  show A (((cfg0.win 4).blk t).view.emb (ix2 k q)) = A (ix2 k q)
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- and the second bias row. -/
theorem whole5 (t : Fin cfg0.N) (A : S1x128.Idx → EReal) (u : Fin 1) (q : Fin 128) :
    ((cfg0.win 5).blk t).view.read (Elt Ideal) A (ix2 u q) = A (ix2 u q) := by
  obtain ⟨-, -, -, -, -, -, -, -, -, -, e0, e1, -⟩ := idx_facts t
  rw [View.read_apply]
  show A (((cfg0.win 5).blk t).view.emb (ix2 u q)) = A (ix2 u q)
  refine congrArg A (funext fun a => Fin.ext ?_)
  match a with
  | ⟨0, _⟩ => show win0_5.index t (0 : Fin 2) * 1 + 1 * u.val = u.val; rw [e0]; omega
  | ⟨1, _⟩ => show win0_5.index t (1 : Fin 2) * 128 + 1 * q.val = q.val; rw [e1]; omega

/-! ## One whole-array function -/

/-- What the body leaves at point t from the blocks of ANY six arrays, read back through the result's window, is
    block t of the staged expression of those arrays: local row p is node 5000·t + p on both sides. -/
theorem tile_block (t : Fin cfg0.N) (A0 A1 : S50000x128.Idx → EReal) (A2 : S128x128.Idx → EReal) (A3 : S1x128.Idx → EReal)
    (A4 : S128x128.Idx → EReal) (A5 : S1x128.Idx → EReal) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (staged A0 A1 A2 A3 A4 A5) := by
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := lt_of_lt_of_eq t.isLt N_eq
  have hp : p.val < 5000 := p.isLt
  obtain ⟨-, -, -, -, -, -, -, -, -, -, -, -, e0, e1⟩ := idx_facts t
  have hemb : ((cfg0.win 6).blk t).view.emb (ix2 p q) = ix2 (⟨5000 * t.val + p.val, by omega⟩ : Fin 50000) q :=
    funext fun a => Fin.ext (by
      match a with
      | ⟨0, _⟩ => show win0_6.index t (0 : Fin 2) * 5000 + 1 * p.val = 5000 * t.val + p.val; rw [e0]; omega
      | ⟨1, _⟩ => show win0_6.index t (1 : Fin 2) * 128 + 1 * q.val = q.val; rw [e1]; omega)
  rw [View.read_apply]
  show k0_pay1 (((cfg0.win 0).blk t).view.read (Elt Ideal) A0) (((cfg0.win 2).blk t).view.read (Elt Ideal) A2)
      (((cfg0.win 3).blk t).view.read (Elt Ideal) A3) (((cfg0.win 4).blk t).view.read (Elt Ideal) A4)
      (((cfg0.win 5).blk t).view.read (Elt Ideal) A5) (((cfg0.win 1).blk t).view.read (Elt Ideal) A1) (ix2 p q)
    = staged A0 A1 A2 A3 A4 A5 (((cfg0.win 6).blk t).view.emb (ix2 p q))
  rw [hemb]
  refine (Tile.payload_apply _ _ _ _ _ _ p q).trans ?_
  have a0 : ∀ l : Fin 128, ((cfg0.win 0).blk t).view.read (Elt Ideal) A0 (ix2 p l)
      = A0 (ix2 (⟨5000 * t.val + p.val, by omega⟩ : Fin 50000) l) := fun l => rows0 t A0 p l _ rfl
  have a1 : ((cfg0.win 1).blk t).view.read (Elt Ideal) A1 (ix2 p q)
      = A1 (ix2 (⟨5000 * t.val + p.val, by omega⟩ : Fin 50000) q) := rows1 t A1 p q _ rfl
  simp only [a0, a1, whole2 t A2, whole3 t A3, whole4 t A4, whole5 t A5]
  rfl

/-- The staged expression of the arrays as the region finds them. -/
abbrev whole (c : Dev nD) : S50000x128.Idx → EReal :=
  staged (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- What point t writes back is block t of `whole`. -/
theorem flushed_eq (c : Dev nD) (t : Fin cfg0.N) :
    (dats m 0 c).flushed 6 t = ((cfg0.win 6).blk t).view.read (Elt Ideal) (whole m c) :=
  (flushed6 m c t).trans
    (tile_block t (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5)))

/-- An index of the result lies in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v9).slice (win0_6.rect t)).set ↔ _
  rw [View.set_slice_whole, Rect.mem_set_unit]
  exact Iff.rfl

/-- Node r's row lies in the block of point r / 5000: the ten blocks tile the result. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_eq
  refine ⟨⟨(i 0).val / 5000, by rw [hN]; omega⟩, flush0_6 _, ?_⟩
  rw [mem_blk]
  obtain ⟨-, -, -, -, -, -, -, -, -, -, -, -, e0, e1⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-! ## The result array and the run -/

/-- The staged expression of the arrays the host prepared is the node update of the arguments. -/
theorem whole_eq (c : Dev nD) : whole m c
    = updated (m ((c : Thread nD τ).loc main_arg0)) (aggregate (m ((c : Thread nD τ).loc main_arg1)) (m ((c : Thread nD τ).loc main_arg2)))
        (m ((c : Thread nD τ).loc main_arg3)) (m ((c : Thread nD τ).loc main_arg4))
        (m ((c : Thread nD τ).loc main_arg5)) (m ((c : Thread nD τ).loc main_arg6)) := by
  have e0 : (V m c (Pipeline.arrRef spec0 0) : S50000x128.Idx → EReal)
      = aggregate (m ((c : Thread nD τ).loc main_arg1)) (m ((c : Thread nD τ).loc main_arg2)) := V_agg m c
  have e1 : (V m c (Pipeline.arrRef spec0 1) : S50000x128.Idx → EReal) = m ((c : Thread nD τ).loc main_arg0) := V_main_arg0 m c
  have e2 : (V m c (Pipeline.arrRef spec0 2) : S128x128.Idx → EReal)
      = transpose S128x128 [1, 0] (m ((c : Thread nD τ).loc main_arg3)) transposes_S128x128_S128x128_1_0 := V_w1t m c
  have e3 : (V m c (Pipeline.arrRef spec0 3) : S1x128.Idx → EReal)
      = shapeCast S1x128 (m ((c : Thread nD τ).loc main_arg4)) shapeCasts_S128_S1x128 := V_b1r m c
  have e4 : (V m c (Pipeline.arrRef spec0 4) : S128x128.Idx → EReal)
      = transpose S128x128 [1, 0] (m ((c : Thread nD τ).loc main_arg5)) transposes_S128x128_S128x128_1_0 := V_w2t m c
  have e5 : (V m c (Pipeline.arrRef spec0 5) : S1x128.Idx → EReal)
      = shapeCast S1x128 (m ((c : Thread nD τ).loc main_arg6)) shapeCasts_S128_S1x128 := V_b2r m c
  unfold whole
  rw [e0, e1, e2, e3, e4, e5]
  exact staged_eq_updated _ _ _ _ _ _ transposes_S128x128_S128x128_1_0 shapeCasts_S128_S1x128

/-- After the run the result array holds the node update of the arguments. -/
theorem final (c : Dev nD) : (dats m 0 c).arrAt 6 cfg0.N
    = updated (m ((c : Thread nD τ).loc main_arg0)) (aggregate (m ((c : Thread nD τ).loc main_arg1)) (m ((c : Thread nD τ).loc main_arg2)))
        (m ((c : Thread nD τ).loc main_arg3)) (m ((c : Thread nD τ).loc main_arg4))
        (m ((c : Thread nD τ).loc main_arg5)) (m ((c : Thread nD τ).loc main_arg6)) :=
  ((dats m 0 c).arrAt_eq_of_cover 6 (whole m c) (fun t _ => flushed_eq m c t) cover).trans (whole_eq m c)

/-- The kernel's run: the result array at the node update of the arguments, the arguments unchanged. -/
theorem run : θ_run defs (onTc (τ := τ) (main (F := Ideal))) ⟨m, fun _ => 0, ρ⟩ fun r => ∀ c : Dev nD,
      r.2.mem ((c : Thread nD τ).loc main_v9)
        = updated (m ((c : Thread nD τ).loc main_arg0)) (aggregate (m ((c : Thread nD τ).loc main_arg1)) (m ((c : Thread nD τ).loc main_arg2)))
            (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Tiles

end
-- ==== Proof.lean ====
/-
  A message-passing node update: the fused kernel against its plain reference, on the extended reals.

  Both programs first sum, for every node, the messages of its incoming edges — the same scatter-add of the edge array
  into zeros at the destination row of the edge list, taken here as one given matrix agg — and then compute

      out(r, j) = v(r, j) + ( Σ_k act( Σ_l agg(r, l) · W1(k, l) + b1(k) ) · W2(j, k) + b2(j) ),   act y = softplus y − c,

  c the single-precision constant nearest log 2, the same word in both. The reference does it with two whole matrix
  products against the transposed weights; the kernel hands ten tiles of 5000 nodes each the transposed weights and the
  biases as rows, and every tile computes its 5000 rows of the same expression (the narrowing of the products' operands
  to half precision is the identity on the extended reals). The two results are therefore the same sums of the same
  products, entry by entry: no rearrangement is involved and no entry needs to be finite, so the precondition is never
  opened.

  The three frames are the generated ones (the reference's is its run with the result dropped); the kernel's
  idealization rewrote nothing, so there is nothing to preserve.
-/
import proofs.«108438_j17377437680124_1_alg».proof.Defs
import proofs.«108438_j17377437680124_1_alg».proof.Proof.Gen.Kernel
import proofs.«108438_j17377437680124_1_alg».proof.Proof.Gen.Kernel.Skeleton
import proofs.«108438_j17377437680124_1_alg».proof.Proof.Gen.Kernel.Launch
import proofs.«108438_j17377437680124_1_alg».proof.Proof.Gen.Kernel.Points
import proofs.«108438_j17377437680124_1_alg».proof.Proof.Gen.Kernel.Frame
import proofs.«108438_j17377437680124_1_alg».proof.Proof.Gen.KernelIdeal
import proofs.«108438_j17377437680124_1_alg».proof.Proof.Gen.KernelIdeal.Skeleton
import proofs.«108438_j17377437680124_1_alg».proof.Proof.Gen.KernelIdeal.Launch
import proofs.«108438_j17377437680124_1_alg».proof.Proof.Gen.KernelIdeal.Points
import proofs.«108438_j17377437680124_1_alg».proof.Proof.Gen.KernelIdeal.Frame
import proofs.«108438_j17377437680124_1_alg».proof.Proof.Gen.ReferenceIdeal
import proofs.«108438_j17377437680124_1_alg».proof.Proof.Gen.KernelIdeal.Value
import proofs.«108438_j17377437680124_1_alg».proof.Proof.Gen.ReferenceIdeal.Run
import proofs.«108438_j17377437680124_1_alg».proof.Proof.Gen.ReferenceIdeal.Read
import proofs.«108438_j17377437680124_1_alg».proof.Proof.Gen.Pre_finite_inputs
import proofs.«108438_j17377437680124_1_alg».proof.Proof.RefValue
import proofs.«108438_j17377437680124_1_alg».proof.Proof.TileArray
import Idealize.ShloMosaic.Adequacy
import Idealize.ShloMosaic.Init

noncomputable section

namespace Cert.Proof

open Idealize.ShloMosaic Idealize.ShloMosaic.TcCoe Idealize.SL.Sem NodeUpdate

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs form the aggregate by the same operations of the same two arguments: zeros, the destination row
    of the edge list as a column of indices, one scatter-add. -/
theorem aggregate_eq (x1 : (⟨Cert.KernelIdeal.S800000x128, .f32⟩ : BufTy).Contents (Elt Ideal))
    (x2 : (⟨Cert.KernelIdeal.S2x800000, .i32⟩ : BufTy).Contents (Elt Ideal)) :
    Cert.ReferenceIdeal.Read.val_main_v4 (F := Ideal) x1 x2 = Cert.KernelIdeal.Tiles.aggregate x1 x2 := rfl

/-- From memories agreeing on the arguments both programs end with the node update of the arguments in their result
    arrays. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v18_eq, Cert.ReferenceIdeal.RefValue.result_eq, h0, h1, h2, h3, h4, h5, h6,
    aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
